-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S4096x11008 : Shape := ⟨2, ![4096, 11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S4x2048x4096 .f32) (main_arg1 : FVec F S11008x4096 .f32) (main_arg2 : FVec F S11008x4096 .f32) (main_arg3 : FVec F S4096x11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S4096x11008 : Shape := ⟨2, ![4096, 11008]⟩
abbrev S8192x4096 : Shape := ⟨2, ![8192, 4096]⟩
abbrev S512x4096 : Shape := ⟨2, ![512, 4096]⟩
abbrev S256x4096 : Shape := ⟨2, ![256, 4096]⟩
abbrev S4096x256 : Shape := ⟨2, ![4096, 256]⟩
abbrev S512x256 : Shape := ⟨2, ![512, 256]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S8192x4096, .f32⟩
  | .hbm, ⟨5, _⟩ => ⟨S8192x4096, .bf16⟩
  | .hbm, ⟨6, _⟩ => ⟨S11008x4096, .bf16⟩
  | .hbm, ⟨7, _⟩ => ⟨S11008x4096, .bf16⟩
  | .hbm, ⟨8, _⟩ => ⟨S4096x11008, .bf16⟩
  | .hbm, ⟨9, _⟩ => ⟨S8192x4096, .f32⟩
  | .hbm, ⟨10, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S4096x256, .bf16⟩
  | .local _ .vmem, ⟨7, _⟩ => ⟨S4096x256, .bf16⟩
  | .local _ .vmem, ⟨8, _⟩ => ⟨S512x4096, .f32⟩
  | .local _ .vmem, ⟨9, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x2048x4096_S8192x4096 : S4x2048x4096.ShapeCasts S8192x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S8192x4096_S4x2048x4096 : S8192x4096.ShapeCasts S4x2048x4096
  dot_S512x4096_S256x4096_S512x256_1_1_0_0_n_n_wf : DotDims.WF S512x4096 S256x4096 S512x256 [1] [1] [0] [0] [] []
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x11008.size a
  hwx0_3 : ∀ i : grid0.Coords, EltTy.bits .bf16 = 32 ∨ (Rect.block (s := S4096x11008) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S4096x11008 : Shape := ⟨2, ![4096, 11008]⟩
abbrev S8192x4096 : Shape := ⟨2, ![8192, 4096]⟩
abbrev S8192x11008 : Shape := ⟨2, ![8192, 11008]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S8192x4096, .f32⟩
  | .hbm, ⟨5, _⟩ => ⟨S4096x11008, .f32⟩
  | .hbm, ⟨6, _⟩ => ⟨S8192x11008, .f32⟩
  | .hbm, ⟨7, _⟩ => ⟨S4096x11008, .f32⟩
  | .hbm, ⟨8, _⟩ => ⟨S8192x11008, .f32⟩
  | .hbm, ⟨9, _⟩ => ⟨S8192x11008, .f32⟩
  | .hbm, ⟨10, _⟩ => ⟨S8192x11008, .f32⟩
  | .hbm, ⟨11, _⟩ => ⟨S_, .f32⟩
  | .hbm, ⟨12, _⟩ => ⟨S8192x11008, .f32⟩
  | .hbm, ⟨13, _⟩ => ⟨S8192x11008, .f32⟩
  | .hbm, ⟨14, _⟩ => ⟨S_, .f32⟩
  | .hbm, ⟨15, _⟩ => ⟨S8192x11008, .f32⟩
  | .hbm, ⟨16, _⟩ => ⟨S8192x11008, .f32⟩
  | .hbm, ⟨17, _⟩ => ⟨S8192x11008, .f32⟩
  | .hbm, ⟨18, _⟩ => ⟨S8192x11008, .f32⟩
  | .hbm, ⟨19, _⟩ => ⟨S11008x4096, .f32⟩
  | .hbm, ⟨20, _⟩ => ⟨S8192x4096, .f32⟩
  | .hbm, ⟨21, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]

class Facts₀ : Prop where
  shapeCasts_S4x2048x4096_S8192x4096 : S4x2048x4096.ShapeCasts S8192x4096
  transposes_S11008x4096_S4096x11008_1_0 : S11008x4096.Transposes [1, 0] S4096x11008
  bcast_S_S8192x11008 : S_.BroadcastsInDim S8192x11008 (![] : Fin 0 → Fin S8192x11008.rank)
  transposes_S4096x11008_S11008x4096_1_0 : S4096x11008.Transposes [1, 0] S11008x4096
  shapeCasts_S8192x4096_S4x2048x4096 : S8192x4096.ShapeCasts S4x2048x4096
  dot_S8192x4096_S4096x11008_S8192x11008_1_0_0_1_n_n_wf : DotDims.WF S8192x4096 S4096x11008 S8192x11008 [1] [0] [0] [1] [] []
  dot_S8192x11008_S11008x4096_S8192x4096_1_0_0_1_n_n_wf : DotDims.WF S8192x11008 S11008x4096 S8192x4096 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf
def dot_S8192x11008_S11008x4096_S8192x4096_1_0_0_1_n_n : DotDims S8192x11008 S11008x4096 S8192x4096 where
  lhsContracting := [1]
  rhsContracting := [0]
  lhsNonContracting := [0]
  rhsNonContracting := [1]
  lhsBatch := []
  rhsBatch := []
  wf := dot_S8192x11008_S11008x4096_S8192x4096_1_0_0_1_n_n_wf

class Facts : Prop extends Facts₀ where

variable [Facts]
-- ==== Proof.LibRowOps.lean ====
/-
  Row-wise operations of a matrix at the ideal values, read at explicit coordinates.

  For an [R, C] f32 matrix: the sum along the lanes at row n is the sum over the columns of the entries of that row; the
  maximum along the lanes at row n is the fold of max, from the starting word's value, over the columns; a vector of R
  entries recast as an [R, 1] column and broadcast to [R, C] has at (n, c) the vector's entry n.  For an [R, K] × [C, K]
  product into the zero accumulator that contracts axis 1 of both operands (a product with the second operand
  transposed), entry (p, q) is Σ_k l(p, k) · r(q, k).  All hold at any extents; indices are written by coordinates.
-/
import Idealize.ShloMosaic.PureOps.Ideal.Laws
import Idealize.ShloMosaic.Lib.ValueIdx
import Idealize.ShloMosaic.Lib.Pipeline.Value

noncomputable section

open scoped BigOperators

namespace Cert.LibRow

open Idealize.ShloMosaic Idealize.ShloMosaic.ValueIdx

/-- A sum along the lanes of an [R, C] matrix, at row n, is the sum over the columns of the entries of that row. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (n : Fin R) :
    multiReduction .add [1] ⟨1, ![R]⟩ src 0x00000000#32 h hφ hacc (ix1 n) = ∑ a : Fin C, src (ix2 n a) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum along the lanes of an [R, C] matrix, at row n, is the fold of max, from the starting word's value, over
    the columns of the entries of that row. -/
theorem rowMax_apply {R C : Nat} (src : FVec Ideal ⟨2, ![R, C]⟩ .f32) (acc : BitVec 32)
    (h : Shape.Reduces (⟨2, ![R, C]⟩ : Shape) [1] ⟨1, ![R]⟩) (hφ : FKind.Formats .f32)
    (hacc : acc = FKind.maximumf.neutral .f32 hφ) (n : Fin R) :
    multiReduction .maximumf [1] ⟨1, ![R]⟩ src acc h hφ hacc (ix1 n)
      = (Finset.univ : Finset (Fin C)).fold max (Ideal.ofBits .f32 acc) (fun a => src (ix2 n a)) :=
  (Ideal.multiReduction_maximumf_single src acc h hφ hacc (ix1 n)).trans
    (congrArg (fun f => Finset.fold max (Ideal.ofBits .f32 acc) f (Finset.univ : Finset (Fin C)))
      (funext fun a => congrArg src (funext fun d => Fin.ext (by
        match d with
        | ⟨0, _⟩ => rfl
        | ⟨1, _⟩ => rfl))))

/-- A vector of R entries recast as an [R, 1] column and broadcast to [R, C] has at (n, c) the vector's entry n. -/
theorem colBroadcast_apply {R C : Nat} {α : Type} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (n : Fin R) (c : Fin C) :
    broadcastTo ⟨2, ![R, C]⟩ (shapeCast ⟨2, ![R, 1]⟩ v h1) h2 (ix2 n c) = v (ix1 n) := by
  refine (broadcastTo_apply (shapeCast ⟨2, ![R, 1]⟩ v h1) h2 (ix2 n c) (ix2 n (0 : Fin 1)) fun ax => ?_).trans ?_
  · match ax with
    | ⟨0, _⟩ =>
      show n.val = if R = 1 then 0 else n.val
      split
      · have := n.isLt; omega
      · rfl
    | ⟨1, _⟩ => rfl
  · exact shapeCast_apply v h1 _ _ (by
      rw [Shape.rowMajor_val_one, Shape.rowMajor_val_two]
      show n.val = n.val * 1 + 0
      omega)

/-- `matmul D prec l r 0 (p, q) = Σ_k l(p, k) · r(q, k)` at the ideal values, for an [R, K] × [C, K] → [R, C] product
    contracting axis 1 of both operands. -/
theorem matmul_zero_nt_ix2 {R K C : Nat} {φ₁ φ₂ : FTy} (D : DotDims ⟨2, ![R, K]⟩ ⟨2, ![C, K]⟩ ⟨2, ![R, C]⟩)
    (hlc : D.lhsContracting = [1]) (hrc : D.rhsContracting = [1]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr0 : ∀ (i : (⟨2, ![R, C]⟩ : Shape).Idx) (c : D.contr.Idx), (D.rhsIdx i c 0).val = (i 1).val)
    (prec : Option ContractPrecision)
    (l : FVec Ideal ⟨2, ![R, K]⟩ φ₁) (r : FVec Ideal ⟨2, ![C, K]⟩ φ₂) (p : Fin R) (q : Fin C) :
    matmul D prec l r (constant ⟨2, ![R, C]⟩ .f32 0x00000000#32) (ix2 p q) = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 q k :=
    funext fun a => Fin.ext (by
      match a with
      | ⟨0, _⟩ => exact hr0 _ _
      | ⟨1, _⟩ => exact (D.rhsIdx_val_of_single hrc _ _).trans hk)
  rw [el, er]

end Cert.LibRow

end
-- ==== Proof.Payload.lean ====
/-
  What one grid step computes, entry by entry, over the extended reals.

  The step holds a block of 512 tokens `x` [512, 4096], 256 rows of each input projection `wg`, `wu` [256, 4096], the
  matching 256 columns of the output projection `wd` [4096, 256], and the running output block `acc` [512, 4096].  It
  forms the two products x · wgᵀ and x · wuᵀ (each entry a row of `x` against a row of the projection), the activation
  (g · logistic g) · u, its product with wdᵀ, and adds that to `acc`:

      new(p, q) = acc(p, q) + Σ_{j < 256} ((g_j · logistic g_j) · u_j) · wd(q, j),
      g_j = Σ_e x(p, e) · wg(j, e),   u_j = Σ_e x(p, e) · wu(j, e).

  Narrowing to the 16-bit format is the identity on extended reals, and each product starts from the zero block, so no
  other term appears.  The block the first step of a sweep starts from is all zeros.
-/
import proofs.«115523_j49220325212289_2_alg».proof.Proof.Gen.KernelIdeal.Skeleton
import proofs.«115523_j49220325212289_2_alg».proof.Proof.LibRowOps
import Idealize.ShloMosaic.Lib.ValueIdx
import Idealize.ShloMosaic.Lib.Pipeline.Value
import Idealize.ShloMosaic.PureOps.Ideal.Laws

noncomputable section

open scoped BigOperators

namespace Cert.KernelIdeal.Step

open Cert.KernelIdeal Cert.KernelIdeal.Gen Idealize.ShloMosaic Idealize.ShloMosaic.ValueIdx

/-- Row `p` of a block `x` against row `j` of a block `w`, both 4096 wide. -/
def rowDot {R C : Nat} (x : (⟨2, ![R, 4096]⟩ : Shape).Idx → EReal) (w : (⟨2, ![C, 4096]⟩ : Shape).Idx → EReal)
    (p : Fin R) (j : Fin C) : EReal :=
  ∑ e : Fin 4096, x (ix2 p e) * w (ix2 j e)

/-! ### The two product shapes of the step: output axis 0 follows the left operand's rows, output axis 1 the right's -/

theorem proj_lhs0 (i : S512x256.Idx) (c : dot_S512x4096_S256x4096_S512x256_1_1_0_0_n_n.contr.Idx) :
    (dot_S512x4096_S256x4096_S512x256_1_1_0_0_n_n.lhsIdx i c 0).val = (i 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl

theorem proj_rhs0 (i : S512x256.Idx) (c : dot_S512x4096_S256x4096_S512x256_1_1_0_0_n_n.contr.Idx) :
    (dot_S512x4096_S256x4096_S512x256_1_1_0_0_n_n.rhsIdx i c 0).val = (i 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl

theorem down_lhs0 (i : S512x4096.Idx) (c : dot_S512x256_S4096x256_S512x4096_1_1_0_0_n_n.contr.Idx) :
    (dot_S512x256_S4096x256_S512x4096_1_1_0_0_n_n.lhsIdx i c 0).val = (i 0).val := by
  unfold DotDims.lhsIdx
  rw [dif_neg (show ¬(0 : Fin S512x256.rank) ∈ dot_S512x256_S4096x256_S512x4096_1_1_0_0_n_n.lhsBatch by decide),
    dif_pos (show (0 : Fin S512x256.rank) ∈ dot_S512x256_S4096x256_S512x4096_1_1_0_0_n_n.lhsNonContracting by decide)]
  rfl

theorem down_rhs0 (i : S512x4096.Idx) (c : dot_S512x256_S4096x256_S512x4096_1_1_0_0_n_n.contr.Idx) :
    (dot_S512x256_S4096x256_S512x4096_1_1_0_0_n_n.rhsIdx i c 0).val = (i 1).val := by
  unfold DotDims.rhsIdx
  rw [dif_neg (show ¬(0 : Fin S4096x256.rank) ∈ dot_S512x256_S4096x256_S512x4096_1_1_0_0_n_n.rhsBatch by decide),
    dif_pos (show (0 : Fin S4096x256.rank) ∈ dot_S512x256_S4096x256_S512x4096_1_1_0_0_n_n.rhsNonContracting by decide)]
  rfl

/-- An input projection of the step, at token `p` and local unit `j`: the row of `x` against the row of `w`. -/
theorem proj_apply (x : FVec Ideal S512x4096 .bf16) (w : FVec Ideal S256x4096 .bf16) (p : Fin 512) (j : Fin 256) :
    matmul dot_S512x4096_S256x4096_S512x256_1_1_0_0_n_n none x w (constant (F := Ideal) S512x256 .f32 0x00000000#32) (ix2 p j)
      = rowDot x w p j :=
  Cert.LibRow.matmul_zero_nt_ix2 dot_S512x4096_S256x4096_S512x256_1_1_0_0_n_n rfl rfl rfl rfl proj_lhs0 proj_rhs0 none x w p j

/-- The output projection of the step, at token `p` and output column `q`: the activations of the 256 local units
    against row `q` of the block of the output projection. -/
theorem down_apply (h : FVec Ideal S512x256 .bf16) (w : FVec Ideal S4096x256 .bf16) (p : Fin 512) (q : Fin 4096) :
    matmul dot_S512x256_S4096x256_S512x4096_1_1_0_0_n_n none h w (constant (F := Ideal) S512x4096 .f32 0x00000000#32) (ix2 p q)
      = ∑ j : Fin 256, h (ix2 p j) * w (ix2 q j) :=
  Cert.LibRow.matmul_zero_nt_ix2 dot_S512x256_S4096x256_S512x4096_1_1_0_0_n_n rfl rfl rfl rfl down_lhs0 down_rhs0 none h w p q

/-- The block a sweep starts from is zero everywhere. -/
theorem pay1_apply (i : S512x4096.Idx) : k0_pay1 (F := Ideal) i = 0 := by
  unfold k0_pay1
  exact Ideal.ofBits_zero_f32

/-- One step at entry `(p, q)`: the running entry plus the 256 local units' contributions. -/
theorem pay2_apply (x : FVec Ideal S512x4096 .bf16) (wg wu : FVec Ideal S256x4096 .bf16) (acc : FVec Ideal S512x4096 .f32)
    (wd : FVec Ideal S4096x256 .bf16) (p : Fin 512) (q : Fin 4096) :
    k0_pay2 (F := Ideal) x wg wu acc wd (ix2 p q)
      = acc (ix2 p q) + ∑ j : Fin 256,
          ((rowDot x wg p j * Ideal.logistic (rowDot x wg p j)) * rowDot x wu p j) * wd (ix2 q j) := by
  unfold k0_pay2
  simp only [shapeCast_self]
  refine (addf_apply _ _ _).trans ?_
  refine congrArg (acc (ix2 p q) + ·) ?_
  refine (down_apply _ wd p q).trans ?_
  refine Finset.sum_congr rfl fun j _ => ?_
  refine congrArg (· * wd (ix2 q j)) ?_
  show (matmul dot_S512x4096_S256x4096_S512x256_1_1_0_0_n_n none x wg (constant (F := Ideal) S512x256 .f32 0x00000000#32) (ix2 p j)
      * Ideal.logistic (matmul dot_S512x4096_S256x4096_S512x256_1_1_0_0_n_n none x wg (constant (F := Ideal) S512x256 .f32 0x00000000#32) (ix2 p j)))
      * matmul dot_S512x4096_S256x4096_S512x256_1_1_0_0_n_n none x wu (constant (F := Ideal) S512x256 .f32 0x00000000#32) (ix2 p j) = _
  rw [proj_apply, proj_apply]

end Cert.KernelIdeal.Step

end
-- ==== Proof.Spec.lean ====
/-
  The gated feed-forward map as ONE function of its four arrays, over the extended reals.

  For tokens X [8192, 4096] and weights Wg, Wu [11008, 4096], Wd [4096, 11008]:

      gate(t, f) = Σ_e X(t, e) · W(f, e)                                   (a row of X against a row of W)
      hid(t, f)  = (g · logistic g) · u   with g = gate_Wg(t, f), u = gate_Wu(t, f)
      Y(t, d)    = Σ_f hid(t, f) · Wd(d, f)                                (f over all 11008 hidden units)

  The sum over the hidden units is also read 256 units at a time: as a sum over an initial segment of the naturals
  (the summand continued by zero past the hidden width), it grows by one block of 256 consecutive units per step, and
  after 43 steps it is the whole sum.  Only that addition of extended reals is associative and commutative is used;
  nothing here needs an entry to be finite.
-/
import Idealize.ShloMosaic.PureOps.Ideal.Laws
import Idealize.ShloMosaic.Lib.ValueIdx

noncomputable section

open scoped BigOperators

namespace Cert.Mlp

open Idealize.ShloMosaic Idealize.ShloMosaic.ValueIdx

/-- Tokens by model width. -/
abbrev SX : Shape := ⟨2, ![8192, 4096]⟩
/-- Hidden units by model width (the two input projections). -/
abbrev SW : Shape := ⟨2, ![11008, 4096]⟩
/-- Model width by hidden units (the output projection). -/
abbrev SD : Shape := ⟨2, ![4096, 11008]⟩

/-- Row `t` of `X` against row `f` of a projection `W`. -/
def gate (X : SX.Idx → EReal) (W : SW.Idx → EReal) (t : Fin 8192) (f : Fin 11008) : EReal :=
  ∑ e : Fin 4096, X (ix2 t e) * W (ix2 f e)

/-- The hidden activation of token `t` at unit `f`: the gate's value times its logistic, times the up-projection. -/
def hid (X : SX.Idx → EReal) (Wg Wu : SW.Idx → EReal) (t : Fin 8192) (f : Fin 11008) : EReal :=
  (gate X Wg t f * Ideal.logistic (gate X Wg t f)) * gate X Wu t f

/-- The result: entry `(t, d)` sums, over the hidden units, the activation times the output projection's entry. -/
def Y (X : SX.Idx → EReal) (Wg Wu : SW.Idx → EReal) (Wd : SD.Idx → EReal) : SX.Idx → EReal :=
  fun i => ∑ f : Fin 11008, hid X Wg Wu (i 0) f * Wd (ix2 (i 1) f)

/-- The batched tokens, [4, 2048, 4096]. -/
abbrev SB : Shape := ⟨3, ![4, 2048, 4096]⟩

/-- The whole program: the batched tokens laid out as 8192 rows, mapped by `Y`, and laid out as a batch again.  The two
    re-layouts are the same on both sides of the claim and are never opened. -/
def ffn (x : SB.Idx → EReal) (Wg Wu : SW.Idx → EReal) (Wd : SD.Idx → EReal) (h1 : SB.ShapeCasts SX) (h2 : SX.ShapeCasts SB) :
    SB.Idx → EReal :=
  shapeCast SB (Y (shapeCast SX x h1) Wg Wu Wd) h2

/-- The summand of entry `(t, d)` at hidden unit `n`, continued by zero past the hidden width. -/
def term (X : SX.Idx → EReal) (Wg Wu : SW.Idx → EReal) (Wd : SD.Idx → EReal) (t : Fin 8192) (d : Fin 4096) (n : ℕ) : EReal :=
  if h : n < 11008 then hid X Wg Wu t ⟨n, h⟩ * Wd (ix2 d ⟨n, h⟩) else 0

/-- The result's entry is the sum of its summands over the first 11008 naturals. -/
theorem Y_eq_range (X : SX.Idx → EReal) (Wg Wu : SW.Idx → EReal) (Wd : SD.Idx → EReal) (t : Fin 8192) (d : Fin 4096) :
    Y X Wg Wu Wd (ix2 t d) = ∑ n ∈ Finset.range 11008, term X Wg Wu Wd t d n := by
  rw [← Fin.sum_univ_eq_sum_range]
  show ∑ f : Fin 11008, hid X Wg Wu t f * Wd (ix2 d f) = _
  refine Finset.sum_congr rfl fun f _ => ?_
  unfold term
  rw [dif_pos f.isLt]

/-- The summand at position `j` of block `k` is the one at hidden unit `256 k + j`. -/
theorem term_block (X : SX.Idx → EReal) (Wg Wu : SW.Idx → EReal) (Wd : SD.Idx → EReal) (t : Fin 8192) (d : Fin 4096)
    (k : ℕ) (j : Fin 256) (f : Fin 11008) (hf : f.val = 256 * k + j.val) :
    term X Wg Wu Wd t d (256 * k + j.val) = hid X Wg Wu t f * Wd (ix2 d f) := by
  unfold term
  have h : 256 * k + j.val < 11008 := hf ▸ f.isLt
  rw [dif_pos h]
  have e : (⟨256 * k + j.val, h⟩ : Fin 11008) = f := Fin.ext hf.symm
  rw [e]

/-- One more block: the sum over the first `k` blocks plus block `k` is the sum over the first `k + 1` blocks. -/
theorem range_add_block {M : Type*} [AddCommMonoid M] (a : ℕ → M) (k : ℕ) :
    ∑ n ∈ Finset.range (256 * k), a n + ∑ j : Fin 256, a (256 * k + j.val) = ∑ n ∈ Finset.range (256 * (k + 1)), a n := by
  rw [Nat.mul_succ, Finset.sum_range_add, Fin.sum_univ_eq_sum_range (fun j => a (256 * k + j))]

end Cert.Mlp

end
-- ==== Proof.StepValue.lean ====
/-
  One grid step in terms of the whole arrays.

  Let the step's blocks be windows of arrays X, Wg, Wu, Wd: the token block's row `p` is row `r` of X, and local unit
  `j` of the two input projections' blocks and of the output projection's block is hidden unit `256 k + j`.  Then the
  step adds to the running entry `(p, q)` exactly the 256 summands of Y(r, q) at the hidden units of block `k`.
-/
import proofs.«115523_j49220325212289_2_alg».proof.Proof.Payload
import proofs.«115523_j49220325212289_2_alg».proof.Proof.Spec

noncomputable section

open scoped BigOperators

namespace Cert.KernelIdeal.Step

open Cert.KernelIdeal Cert.KernelIdeal.Gen Idealize.ShloMosaic Idealize.ShloMosaic.ValueIdx Cert.Mlp

theorem step_eq (X : SX.Idx → EReal) (Wg Wu : SW.Idx → EReal) (Wd : SD.Idx → EReal)
    (x0 : FVec Ideal S512x4096 .bf16) (x1 x2 : FVec Ideal S256x4096 .bf16) (x3 : FVec Ideal S4096x256 .bf16)
    (k : ℕ) (hk : k < 43) (p : Fin 512) (q : Fin 4096) (r : Fin 8192)
    (h0 : ∀ e : Fin 4096, x0 (ix2 p e) = X (ix2 r e))
    (h1 : ∀ (j : Fin 256) (f : Fin 11008), f.val = 256 * k + j.val → ∀ e : Fin 4096, x1 (ix2 j e) = Wg (ix2 f e))
    (h2 : ∀ (j : Fin 256) (f : Fin 11008), f.val = 256 * k + j.val → ∀ e : Fin 4096, x2 (ix2 j e) = Wu (ix2 f e))
    (h3 : ∀ (j : Fin 256) (f : Fin 11008), f.val = 256 * k + j.val → x3 (ix2 q j) = Wd (ix2 q f))
    (acc : FVec Ideal S512x4096 .f32) :
    k0_pay2 (F := Ideal) x0 x1 x2 acc x3 (ix2 p q)
      = acc (ix2 p q) + ∑ j : Fin 256, term X Wg Wu Wd r q (256 * k + j.val) := by
  refine (pay2_apply x0 x1 x2 acc x3 p q).trans ?_
  refine congrArg (acc (ix2 p q) + ·) ?_
  refine Finset.sum_congr rfl fun j _ => ?_
  have hlt : 256 * k + j.val < 11008 := by have := j.isLt; omega
  obtain ⟨f, hf⟩ : ∃ f : Fin 11008, f.val = 256 * k + j.val := ⟨⟨256 * k + j.val, hlt⟩, rfl⟩
  rw [term_block X Wg Wu Wd r q k j f hf]
  have hg : rowDot x0 x1 p j = gate X Wg r f := by
    unfold rowDot gate
    exact Finset.sum_congr rfl fun e _ => by rw [h0 e, h1 j f hf e]
  have hu : rowDot x0 x2 p j = gate X Wu r f := by
    unfold rowDot gate
    exact Finset.sum_congr rfl fun e _ => by rw [h0 e, h2 j f hf e]
  rw [hg, hu, h3 j f hf]
  rfl

end Cert.KernelIdeal.Step

end
-- ==== Proof.Cases.lean ====
/-
  What each of the step's two control cases leaves in the output block's buffer, as a value.

  On the first step of a sweep (the hidden-axis coordinate is 0) the body first stores the zero block, reads it back,
  and stores the step's result over it: the result of the step started from the zero block.  On every other step it
  reads what the step before left and stores the step's result over that.  In both cases the buffer ends holding one
  whole-block store, so what it holds is that store's value, whatever the buffers' names; the loads read whole buffers
  and so return the blocks they were given.
-/
import proofs.«115523_j49220325212289_2_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

/-- The zero offsets of a whole-block access. -/
theorem hz : (![0, 0] : Fin 2 → Nat) = fun _ => 0 := funext fun a => by fin_cases a <;> rfl

/-- A later step of a sweep: the buffer holding `xo` ends holding the step's result from `xo`. -/
theorem out_B (c : Dev nD) (i : grid0.Coords) (a2 : Memref sig .tc .vmem S512x4096 .bf16) (h2 : a2.IsWhole)
    (a3 : Memref sig .tc .vmem S256x4096 .bf16) (h3 : a3.IsWhole) (a4 : Memref sig .tc .vmem S256x4096 .bf16) (h4 : a4.IsWhole)
    (a5 : Memref sig .tc .vmem S4096x256 .bf16) (h5 : a5.IsWhole) (a6 : Memref sig .tc .vmem S512x4096 .f32) (h6 : a6.IsWhole)
    (hc : ¬cond0_0 i) (x0 : Vec F S512x4096 .bf16) (x1 x2 : Vec F S256x4096 .bf16) (x3 : Vec F S4096x256 .bf16) (xo : Vec F S512x4096 .f32) :
    out0_B_4 c i a2 h2 a3 h3 a4 h4 a5 h5 a6 h6 hc x0 x1 x2 x3 xo = k0_pay2 x0 x1 x2 xo x3 := by
  unfold out0_B_4
  rw [View.read_writes_eq_canon _ _ _ (cover0_B_4 c i a2 h2 a3 h3 a4 h4 a5 h5 a6 h6 hc x0 x1 x2 x3 xo)]
  unfold kernelRun0_B
  dsimp only
  rw [View.canon_unit_zero (S := S512x4096) hz]
  simp only [View.readAt_eq_ld, h2.read_unread, h3.read_unread, h4.read_unread, h5.read_unread, h6.read_unread,
    View.ld_unit_zero (S := S512x4096) hz, View.ld_unit_zero (S := S256x4096) hz, View.ld_unit_zero (S := S4096x256) hz]

/-- The first step of a sweep: the buffer ends holding the step's result from the zero block. -/
theorem out_A (c : Dev nD) (i : grid0.Coords) (a2 : Memref sig .tc .vmem S512x4096 .bf16) (h2 : a2.IsWhole)
    (a3 : Memref sig .tc .vmem S256x4096 .bf16) (h3 : a3.IsWhole) (a4 : Memref sig .tc .vmem S256x4096 .bf16) (h4 : a4.IsWhole)
    (a5 : Memref sig .tc .vmem S4096x256 .bf16) (h5 : a5.IsWhole) (a6 : Memref sig .tc .vmem S512x4096 .f32) (h6 : a6.IsWhole)
    (hc : cond0_0 i) (x0 : Vec F S512x4096 .bf16) (x1 x2 : Vec F S256x4096 .bf16) (x3 : Vec F S4096x256 .bf16) :
    out0_A_4 c i a2 h2 a3 h3 a4 h4 a5 h5 a6 h6 hc x0 x1 x2 x3 = k0_pay2 x0 x1 x2 (k0_pay1 (F := F)) x3 := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S512x4096) hz, View.readCov_unit_zero (S := S512x4096) _ hz]
  simp only [View.readAt_eq_ld, h2.read_unread, h3.read_unread, h4.read_unread, h5.read_unread,
    View.ld_unit_zero (S := S512x4096) hz, View.ld_unit_zero (S := S256x4096) hz, View.ld_unit_zero (S := S4096x256) hz]

end Cert.KernelIdeal.Cases

end
-- ==== Proof.Blocks.lean ====
/-
  Where a grid step's blocks sit in their arrays.

  The 688 steps are numbered row-major over 16 token tiles by 43 hidden-unit blocks: step `t` works on token tile
  `t / 43` and hidden block `t % 43`.  Read at local coordinates, the step's blocks are:

      tokens            (p, e)  ↦  X  (512 · (t / 43) + p,  e)
      gate projection   (j, e)  ↦  Wg (256 · (t % 43) + j,  e)
      up projection     (j, e)  ↦  Wu (256 · (t % 43) + j,  e)
      down projection   (q, j)  ↦  Wd (q,  256 · (t % 43) + j)
      output            (p, q)  ↦  Y  (512 · (t / 43) + p,  q)

  A block's coordinate along an axis is the block index times the block's extent plus the coordinate inside the block;
  the block indices are the index maps' values, decided once over the grid.
-/
import proofs.«115523_j49220325212289_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]

/-! ### The index maps over the grid -/

theorem idx0 : ∀ t : Fin cfg0.N, win0_0.index t 0 = t.val / 43 ∧ win0_0.index t 1 = 0 :=
  (by decide +kernel : ∀ t : Fin grid0.N, win0_0.index t 0 = t.val / 43 ∧ win0_0.index t 1 = 0)
theorem idx1 : ∀ t : Fin cfg0.N, win0_1.index t 0 = t.val % 43 ∧ win0_1.index t 1 = 0 :=
  (by decide +kernel : ∀ t : Fin grid0.N, win0_1.index t 0 = t.val % 43 ∧ win0_1.index t 1 = 0)
theorem idx2 : ∀ t : Fin cfg0.N, win0_2.index t 0 = t.val % 43 ∧ win0_2.index t 1 = 0 :=
  (by decide +kernel : ∀ t : Fin grid0.N, win0_2.index t 0 = t.val % 43 ∧ win0_2.index t 1 = 0)
theorem idx3 : ∀ t : Fin cfg0.N, win0_3.index t 0 = 0 ∧ win0_3.index t 1 = t.val % 43 :=
  (by decide +kernel : ∀ t : Fin grid0.N, win0_3.index t 0 = 0 ∧ win0_3.index t 1 = t.val % 43)
theorem idx4 : ∀ t : Fin cfg0.N, win0_4.index t 0 = t.val / 43 ∧ win0_4.index t 1 = 0 :=
  (by decide +kernel : ∀ t : Fin grid0.N, win0_4.index t 0 = t.val / 43 ∧ win0_4.index t 1 = 0)

/-! ### A block read at local coordinates, for any contents of its array -/

/-- The token block: local row `p` is row `512 · (t / 43) + p`. -/
theorem blk0_read (A : (⟨S8192x4096, .bf16⟩ : BufTy).Contents (Elt F)) (t : Fin cfg0.N) (p : Fin 512) (e : Fin 4096)
    (r : Fin 8192) (hr : r.val = 512 * (t.val / 43) + p.val) :
    (((cfg0.win 0).blk t).view.read (Elt F) A : Vec F S512x4096 .bf16) (ix2 p e) = A (ix2 r e) := by
  rw [View.read_apply]
  refine congrArg A ?_
  funext a
  apply Fin.ext
  match a with
  | ⟨0, _⟩ =>
    show win0_0.index t 0 * 512 + 1 * p.val = r.val
    rw [(idx0 t).1, hr]; omega
  | ⟨1, _⟩ =>
    show win0_0.index t 1 * 4096 + 1 * e.val = e.val
    rw [(idx0 t).2]; omega

/-- The gate projection's block: local row `j` is hidden unit `256 · (t % 43) + j`. -/
theorem blk1_read (A : (⟨S11008x4096, .bf16⟩ : BufTy).Contents (Elt F)) (t : Fin cfg0.N) (j : Fin 256) (e : Fin 4096)
    (f : Fin 11008) (hf : f.val = 256 * (t.val % 43) + j.val) :
    (((cfg0.win 1).blk t).view.read (Elt F) A : Vec F S256x4096 .bf16) (ix2 j e) = A (ix2 f e) := by
  rw [View.read_apply]
  refine congrArg A ?_
  funext a
  apply Fin.ext
  match a with
  | ⟨0, _⟩ =>
    show win0_1.index t 0 * 256 + 1 * j.val = f.val
    rw [(idx1 t).1, hf]; omega
  | ⟨1, _⟩ =>
    show win0_1.index t 1 * 4096 + 1 * e.val = e.val
    rw [(idx1 t).2]; omega

/-- The up projection's block: the same rows of the other projection. -/
theorem blk2_read (A : (⟨S11008x4096, .bf16⟩ : BufTy).Contents (Elt F)) (t : Fin cfg0.N) (j : Fin 256) (e : Fin 4096)
    (f : Fin 11008) (hf : f.val = 256 * (t.val % 43) + j.val) :
    (((cfg0.win 2).blk t).view.read (Elt F) A : Vec F S256x4096 .bf16) (ix2 j e) = A (ix2 f e) := by
  rw [View.read_apply]
  refine congrArg A ?_
  funext a
  apply Fin.ext
  match a with
  | ⟨0, _⟩ =>
    show win0_2.index t 0 * 256 + 1 * j.val = f.val
    rw [(idx2 t).1, hf]; omega
  | ⟨1, _⟩ =>
    show win0_2.index t 1 * 4096 + 1 * e.val = e.val
    rw [(idx2 t).2]; omega

/-- The down projection's block: local column `j` is hidden unit `256 · (t % 43) + j`. -/
theorem blk3_read (A : (⟨S4096x11008, .bf16⟩ : BufTy).Contents (Elt F)) (t : Fin cfg0.N) (q : Fin 4096) (j : Fin 256)
    (f : Fin 11008) (hf : f.val = 256 * (t.val % 43) + j.val) :
    (((cfg0.win 3).blk t).view.read (Elt F) A : Vec F S4096x256 .bf16) (ix2 q j) = A (ix2 q f) := by
  rw [View.read_apply]
  refine congrArg A ?_
  funext a
  apply Fin.ext
  match a with
  | ⟨0, _⟩ =>
    show win0_3.index t 0 * 4096 + 1 * q.val = q.val
    rw [(idx3 t).1]; omega
  | ⟨1, _⟩ =>
    show win0_3.index t 1 * 256 + 1 * j.val = f.val
    rw [(idx3 t).2, hf]; omega

/-- The output block: local row `p` is row `512 · (t / 43) + p`. -/
theorem blk4_read (A : (⟨S8192x4096, .f32⟩ : BufTy).Contents (Elt F)) (t : Fin cfg0.N) (p : Fin 512) (q : Fin 4096)
    (r : Fin 8192) (hr : r.val = 512 * (t.val / 43) + p.val) :
    (((cfg0.win 4).blk t).view.read (Elt F) A : Vec F S512x4096 .f32) (ix2 p q) = A (ix2 r q) := by
  rw [View.read_apply]
  refine congrArg A ?_
  funext a
  apply Fin.ext
  match a with
  | ⟨0, _⟩ =>
    show win0_4.index t 0 * 512 + 1 * p.val = r.val
    rw [(idx4 t).1, hr]; omega
  | ⟨1, _⟩ =>
    show win0_4.index t 1 * 4096 + 1 * q.val = q.val
    rw [(idx4 t).2]; omega

/-! ### The input blocks of a step, off the arrays as the launch finds them -/

variable (m : (ℓ : Loc nD τ sig) → Buf (Elt F) ℓ)

theorem iblk0_apply (c : Dev nD) (t : Fin cfg0.N) (p : Fin 512) (e : Fin 4096)
    (r : Fin 8192) (hr : r.val = 512 * (t.val / 43) + p.val) :
    (iblk m c 0 t : Vec F S512x4096 .bf16) (ix2 p e) = (V m c main_v1 : Vec F S8192x4096 .bf16) (ix2 r e) :=
  blk0_read (V m c main_v1) t p e r hr

theorem iblk1_apply (c : Dev nD) (t : Fin cfg0.N) (j : Fin 256) (e : Fin 4096)
    (f : Fin 11008) (hf : f.val = 256 * (t.val % 43) + j.val) :
    (iblk m c 1 t : Vec F S256x4096 .bf16) (ix2 j e) = (V m c main_v2 : Vec F S11008x4096 .bf16) (ix2 f e) :=
  blk1_read (V m c main_v2) t j e f hf

theorem iblk2_apply (c : Dev nD) (t : Fin cfg0.N) (j : Fin 256) (e : Fin 4096)
    (f : Fin 11008) (hf : f.val = 256 * (t.val % 43) + j.val) :
    (iblk m c 2 t : Vec F S256x4096 .bf16) (ix2 j e) = (V m c main_v3 : Vec F S11008x4096 .bf16) (ix2 f e) :=
  blk2_read (V m c main_v3) t j e f hf

theorem iblk3_apply (c : Dev nD) (t : Fin cfg0.N) (q : Fin 4096) (j : Fin 256)
    (f : Fin 11008) (hf : f.val = 256 * (t.val % 43) + j.val) :
    (iblk m c 3 t : Vec F S4096x256 .bf16) (ix2 q j) = (V m c main_v4 : Vec F S4096x11008 .bf16) (ix2 q f) :=
  blk3_read (V m c main_v4) t q j f hf

end Cert.KernelIdeal.Blocks

end
-- ==== Proof.Accum.lean ====
/-
  The running output block, step by step.

  Along one sweep over the 43 hidden-unit blocks of a token tile, the output block is carried from step to step: the
  first step of the sweep (hidden block 0) starts it from zero, each later step adds its block's 256 summands to what
  the step before left.  So after step `n` (token tile `n / 43`, hidden block `n % 43`) the block's entry `(p, q)` is the
  partial sum of Y(512 (n / 43) + p, q) over the hidden units of the first `n % 43 + 1` blocks — by induction on the
  step, the two cases being the first step of a sweep and a later one.
-/
import proofs.«115523_j49220325212289_2_alg».proof.Proof.StepValue
import proofs.«115523_j49220325212289_2_alg».proof.Proof.Cases
import proofs.«115523_j49220325212289_2_alg».proof.Proof.Blocks

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.Mlp

variable (m : (ℓ : Loc nD τ sig) → Buf (Elt Ideal) ℓ)

/-- The four arrays the launch finds: the tokens and the three projections, as the operations before it leave them. -/
abbrev aX (c : Dev nD) : SX.Idx → EReal := (V m c main_v1 : Vec Ideal S8192x4096 .bf16)
abbrev aWg (c : Dev nD) : SW.Idx → EReal := (V m c main_v2 : Vec Ideal S11008x4096 .bf16)
abbrev aWu (c : Dev nD) : SW.Idx → EReal := (V m c main_v3 : Vec Ideal S11008x4096 .bf16)
abbrev aWd (c : Dev nD) : SD.Idx → EReal := (V m c main_v4 : Vec Ideal S4096x11008 .bf16)

/-- What step `t` adds to a running block `acc`, in terms of the arrays. -/
theorem step_at (c : Dev nD) (t : Fin cfg0.N) (acc : FVec Ideal S512x4096 .f32) (p : Fin 512) (q : Fin 4096) (r : Fin 8192)
    (hr : r.val = 512 * (t.val / 43) + p.val) :
    k0_pay2 (F := Ideal) (iblk m c 0 t) (iblk m c 1 t) (iblk m c 2 t) acc (iblk m c 3 t) (ix2 p q)
      = acc (ix2 p q) + ∑ j : Fin 256, term (aX m c) (aWg m c) (aWu m c) (aWd m c) r q (256 * (t.val % 43) + j.val) :=
  Step.step_eq (aX m c) (aWg m c) (aWu m c) (aWd m c) (iblk m c 0 t) (iblk m c 1 t) (iblk m c 2 t) (iblk m c 3 t)
    (t.val % 43) (Nat.mod_lt _ (by decide)) p q r
    (fun e => Blocks.iblk0_apply m c t p e r hr)
    (fun j f hf e => Blocks.iblk1_apply m c t j e f hf)
    (fun j f hf e => Blocks.iblk2_apply m c t j e f hf)
    (fun j f hf => Blocks.iblk3_apply m c t q j f hf)
    acc

/-- The first step of a sweep leaves the first block's partial sum. -/
theorem first_step (c : Dev nD) (t : Fin cfg0.N) (h0 : t.val % 43 = 0) (p : Fin 512) (q : Fin 4096) (r : Fin 8192)
    (hr : r.val = 512 * (t.val / 43) + p.val) :
    (outsAt0 m c t.val t.isLt : Vec Ideal S512x4096 .f32) (ix2 p q)
      = ∑ n ∈ Finset.range (256 * (t.val % 43 + 1)), term (aX m c) (aWg m c) (aWu m c) (aWd m c) r q n := by
  rw [outsAt0_A m c t h0, Cases.out_A]
  refine (step_at m c t (k0_pay1 (F := Ideal)) p q r hr).trans ?_
  rw [Step.pay1_apply, zero_add, h0, ← range_add_block _ 0, Nat.mul_zero, Finset.range_zero, Finset.sum_empty, zero_add]

/-- After step `n` the block's entry `(p, q)` is the partial sum over the first `n % 43 + 1` blocks of hidden units. -/
theorem outsAt_apply (c : Dev nD) (n : ℕ) : ∀ (hn : n < cfg0.N) (p : Fin 512) (q : Fin 4096) (r : Fin 8192),
    r.val = 512 * (n / 43) + p.val →
    (outsAt0 m c n hn : Vec Ideal S512x4096 .f32) (ix2 p q)
      = ∑ n' ∈ Finset.range (256 * (n % 43 + 1)), term (aX m c) (aWg m c) (aWu m c) (aWd m c) r q n' := by
  induction n with
  | zero => intro hn p q r hr; exact first_step m c ⟨0, hn⟩ rfl p q r hr
  | succ n ih =>
    intro hn p q r hr
    by_cases h0 : (n + 1) % 43 = 0
    · exact first_step m c ⟨n + 1, hn⟩ h0 p q r hr
    · rw [outsAt0_B m c ⟨n + 1, hn⟩ h0, Cases.out_B]
      refine (step_at m c ⟨n + 1, hn⟩ _ p q r hr).trans ?_
      have hr' : r.val = 512 * (n / 43) + p.val := by rw [hr]; omega
      have e43 : n % 43 + 1 = (n + 1) % 43 := by omega
      show (outsAt0 m c n _ : Vec Ideal S512x4096 .f32) (ix2 p q) + _ = _
      rw [ih _ p q r hr', e43]
      exact range_add_block _ _

end Cert.KernelIdeal.Accum

end
-- ==== Proof.Whole.lean ====
/-
  From the steps' blocks to the program's result.

  The output block of a token tile is written back once, by the last step of the tile's sweep, when all 43 blocks of
  hidden units have been added: its entry `(p, q)` is then the whole sum Y(512 (t / 43) + p, q).  The 16 tiles' blocks
  tile the rows of the result array (row `r` belongs to tile `r / 512`), so the array ends holding Y of the four arrays
  the launch found.  Those are the program's arguments — the tokens laid out as rows, and narrowing to the 16-bit format
  being the identity on extended reals — and the one operation after the launch lays the rows out as a batch again.
-/
import proofs.«115523_j49220325212289_2_alg».proof.Proof.Accum
import Idealize.ShloMosaic.Lib.Pipeline.Value
import Idealize.ShloMosaic.Lib.StableHlo.Run
import Idealize.ShloMosaic.Lib.Tactic

noncomputable section

open scoped BigOperators

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Mlp Cert.KernelIdeal.Accum

variable (m : (ℓ : Loc nD τ sig) → Buf (Elt Ideal) ℓ) (ρ : Dev nD → PrngReg)

/-- The launch's result array: the feed-forward map of the four arrays the launch finds. -/
abbrev G (c : Dev nD) : Buf (Elt Ideal) ((c : Thread nD τ).loc main_v5) :=
  Y (aX m c) (aWg m c) (aWu m c) (aWd m c)

/-- The last step of a sweep writes back the finished rows of its token tile: all 43 blocks of hidden units are in. -/
theorem flushed_eq (c : Dev nD) (t : Fin cfg0.N) (hf : (cfg0.win 4).flush t = true) :
    (dats m 0 c).flushed 4 t = ((cfg0.win 4).blk t).view.read (Elt Ideal) (G m c) := by
  have h42 : t.val % 43 = 42 := (flush0_4 t).mp hf
  have hN : t.val < 688 := lt_of_lt_of_eq t.isLt N_0
  show (cfg0.win 4).cut (grid0.coords t) ((dats m 0 c).after 4 t) = _
  rw [after0_4]
  funext y
  obtain ⟨p, q, rfl⟩ : ∃ (p : Fin 512) (q : Fin 4096), y = (ix2 p q : S512x4096.Idx) :=
    ⟨y 0, y 1, eq_ix2 (n0 := 512) (n1 := 4096) y⟩
  obtain ⟨r, hr⟩ : ∃ r : Fin 8192, r.val = 512 * (t.val / 43) + p.val :=
    ⟨⟨512 * (t.val / 43) + p.val, by have := p.isLt; omega⟩, rfl⟩
  show (outsAt0 m c t.val t.isLt : Vec Ideal S512x4096 .f32) (ix2 p q) = _
  rw [outsAt_apply m c t.val t.isLt p q r hr, h42, Blocks.blk4_read (G m c) t p q r hr]
  exact (Y_eq_range (aX m c) (aWg m c) (aWu m c) (aWd m c) r q).symm

/-- An index of the result array lies in step `t`'s block iff each coordinate lies in the block's range. -/
theorem mem_blk (t : Fin cfg0.N) (i : S8192x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v5).slice (win0_4.rect t)).set ↔ _
  rw [View.set_slice_whole, Rect.mem_set_unit]
  exact Iff.rfl

/-- Every row is written back by the last step of its token tile's sweep. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 688 := N_0
  obtain ⟨t, tv⟩ : ∃ t : Fin cfg0.N, t.val = 43 * ((i 0).val / 512) + 42 :=
    ⟨⟨43 * ((i 0).val / 512) + 42, by rw [hN]; omega⟩, rfl⟩
  refine ⟨t, (flush0_4 t).mpr (by rw [tv]; omega), ?_⟩
  rw [mem_blk]
  intro a
  have e := Blocks.idx4 t
  match a with
  | ⟨0, _⟩ =>
    show win0_4.index t 0 * 512 ≤ (i 0).val ∧ (i 0).val < win0_4.index t 0 * 512 + 512
    rw [e.1, tv]; omega
  | ⟨1, _⟩ =>
    show win0_4.index t 1 * 4096 ≤ (i 1).val ∧ (i 1).val < win0_4.index t 1 * 4096 + 4096
    rw [e.2]; omega

/-- So the result array ends holding the feed-forward map of the arrays the launch found. -/
theorem final (c : Dev nD) : (dats m 0 c).arrAt 4 cfg0.N = G m c :=
  (dats m 0 c).arrAt_eq_of_cover 4 (G m c) (flushed_eq m c) cover

/-! ### The operations around the launch -/

/-- The tokens the launch finds are the batched argument laid out as rows. -/
theorem aX_eq (c : Dev nD) :
    aX m c = shapeCast SX (m ((c : Thread nD τ).loc main_arg0)) shapeCasts_S4x2048x4096_S8192x4096 := by
  show StableHlo.after hostOps0 (fun b => m (c, b)) (Proc.devRef .tc main_v1) = _
  after_results
  rfl

/-- The projections the launch finds are the arguments. -/
theorem aWg_eq (c : Dev nD) : aWg m c = m ((c : Thread nD τ).loc main_arg1) := by
  show StableHlo.after hostOps0 (fun b => m (c, b)) (Proc.devRef .tc main_v2) = _
  after_results
  rfl
theorem aWu_eq (c : Dev nD) : aWu m c = m ((c : Thread nD τ).loc main_arg2) := by
  show StableHlo.after hostOps0 (fun b => m (c, b)) (Proc.devRef .tc main_v3) = _
  after_results
  rfl
theorem aWd_eq (c : Dev nD) : aWd m c = m ((c : Thread nD τ).loc main_arg3) := by
  show StableHlo.after hostOps0 (fun b => m (c, b)) (Proc.devRef .tc main_v4) = _
  after_results
  rfl

/-- The launch's result in terms of the arguments. -/
theorem G_eq (c : Dev nD) : G m c
    = Y (shapeCast SX (m ((c : Thread nD τ).loc main_arg0)) shapeCasts_S4x2048x4096_S8192x4096)
        (m ((c : Thread nD τ).loc main_arg1)) (m ((c : Thread nD τ).loc main_arg2)) (m ((c : Thread nD τ).loc main_arg3)) := by
  show Y (aX m c) (aWg m c) (aWu m c) (aWd m c) = _
  rw [aX_eq, aWg_eq, aWu_eq, aWd_eq]

/-- The program's result buffer after the operation that follows the launch. -/
theorem tail_eq (c : Dev nD) : Pipeline.afterTail₀ cfgs (dats m) 0 (V0 m) [hostOps1] c main_v6
    = ffn (m ((c : Thread nD τ).loc main_arg0)) (m ((c : Thread nD τ).loc main_arg1)) (m ((c : Thread nD τ).loc main_arg2))
        (m ((c : Thread nD τ).loc main_arg3)) shapeCasts_S4x2048x4096_S8192x4096 shapeCasts_S8192x4096_S4x2048x4096 := by
  have e : Pipeline.withArrays (cfgs 0).spec c (V0 m c) (fun w => (dats m 0 c).arrAt w (cfgs 0).N) (Proc.devRef .tc main_v5)
      = Y (shapeCast SX (m ((c : Thread nD τ).loc main_arg0)) shapeCasts_S4x2048x4096_S8192x4096)
          (m ((c : Thread nD τ).loc main_arg1)) (m ((c : Thread nD τ).loc main_arg2)) (m ((c : Thread nD τ).loc main_arg3)) :=
    ((Pipeline.withArrays_arr spec0 launch0.win.arr_inj c (V0 m c) (fun w => (dats m 0 c).arrAt w cfg0.N) 4).trans (final m c)).trans
      (G_eq m c)
  unfold Pipeline.afterTail₀
  show StableHlo.after hostOps1 _ (Proc.devRef .tc main_v6) = _
  after_results
  rw [e]
  rfl

/-- The kernel program read over the extended reals: every run ends with the feed-forward map of its arguments in its
    result buffer and the arguments unchanged. -/
theorem run : θ_run defs (onTc (τ := τ) (main (F := Ideal))) ⟨m, fun _ => 0, ρ⟩ fun r => ∀ c : Dev nD,
      r.2.mem ((c : Thread nD τ).loc main_v6)
        = ffn (m ((c : Thread nD τ).loc main_arg0)) (m ((c : Thread nD τ).loc main_arg1)) (m ((c : Thread nD τ).loc main_arg2))
            (m ((c : Thread nD τ).loc main_arg3)) shapeCasts_S4x2048x4096_S8192x4096 shapeCasts_S8192x4096_S4x2048x4096
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefStages.lean ====
/-
  The reference program is the same function of its arguments.

  The reference flattens the tokens, multiplies by the transposed projections, applies x · (1 / (1 + exp (−x))) to the
  gate product, multiplies by the up product and then by the transposed output projection, and restores the batch
  layout.  Read at an index: a product with a transposed matrix sums a row against a row, exactly `gate`; and
  1 / (1 + exp (−g)) is the logistic function on every extended real by its definition (the literal is exactly one).
  So the stage before the last re-layout is `Y` of the flattened tokens and the three projections.
-/
import proofs.«115523_j49220325212289_2_alg».proof.Proof.Gen.ReferenceIdeal.Run
import proofs.«115523_j49220325212289_2_alg».proof.Proof.Gen.ReferenceIdeal.Read
import proofs.«115523_j49220325212289_2_alg».proof.Proof.Spec
import Idealize.ShloMosaic.Lib.IdealHost

noncomputable section

open scoped BigOperators

namespace Cert.ReferenceIdeal.Stages

open Cert.ReferenceIdeal Cert.ReferenceIdeal.Gen Cert.ReferenceIdeal.Read Idealize.ShloMosaic Idealize.ShloMosaic.ValueIdx Cert.Mlp

/-- The gate product at token `p` and hidden unit `f`: row `p` of the flattened tokens against row `f` of the gate
    projection. -/
theorem gate_ref (x0 : (⟨S4x2048x4096, .f32⟩ : BufTy).Contents (Elt Ideal)) (x1 : (⟨S11008x4096, .f32⟩ : BufTy).Contents (Elt Ideal))
    (p : Fin 8192) (f : Fin 11008) :
    val_main_v4 (F := Ideal) x0 x1 (ix2 p f) = gate (val_main_v0 (F := Ideal) x0) x1 p f := by
  rw [val_main_v4_apply]
  unfold gate
  refine Finset.sum_congr rfl fun k _ => ?_
  rw [val_main_v3_apply]
  have e1 : lidx_main_v4 (ix2 p f) k = ix2 p k := funext fun a => by
    match a with
    | ⟨0, _⟩ => rfl
    | ⟨1, _⟩ => rfl
  have e2 : idx_main_v3 (ridx_main_v4 (ix2 p f) k) = ix2 f k := funext fun a => by
    match a with
    | ⟨0, _⟩ => rfl
    | ⟨1, _⟩ => rfl
  rw [e1, e2]

/-- The up product likewise, against the up projection. -/
theorem up_ref (x0 : (⟨S4x2048x4096, .f32⟩ : BufTy).Contents (Elt Ideal)) (x2 : (⟨S11008x4096, .f32⟩ : BufTy).Contents (Elt Ideal))
    (p : Fin 8192) (f : Fin 11008) :
    val_main_v2 (F := Ideal) x0 x2 (ix2 p f) = gate (val_main_v0 (F := Ideal) x0) x2 p f := by
  rw [val_main_v2_apply]
  unfold gate
  refine Finset.sum_congr rfl fun k _ => ?_
  rw [val_main_v1_apply]
  have e1 : lidx_main_v2 (ix2 p f) k = ix2 p k := funext fun a => by
    match a with
    | ⟨0, _⟩ => rfl
    | ⟨1, _⟩ => rfl
  have e2 : idx_main_v1 (ridx_main_v2 (ix2 p f) k) = ix2 f k := funext fun a => by
    match a with
    | ⟨0, _⟩ => rfl
    | ⟨1, _⟩ => rfl
  rw [e1, e2]

/-- The reference's spelt-out activation is the gate product times its logistic. -/
theorem act_ref (x0 : (⟨S4x2048x4096, .f32⟩ : BufTy).Contents (Elt Ideal)) (x1 : (⟨S11008x4096, .f32⟩ : BufTy).Contents (Elt Ideal))
    (i : S8192x11008.Idx) :
    val_main_v5 (F := Ideal) x0 x1 i = val_main_v4 (F := Ideal) x0 x1 i * Ideal.logistic (val_main_v4 (F := Ideal) x0 x1 i) := by
  rw [val_main_v5_apply, val_main_call0_v5_apply, val_main_call0_v4_apply, val_main_call0_cst_0_apply, val_main_call0_v3_apply,
    val_main_call0_v2_apply, val_main_call0_cst_apply, val_main_call0_v1_apply, val_main_call0_v0_apply]
  simp only [Ideal.mulf_def, Ideal.hostDivf_def, Ideal.addf_def, Ideal.hostUnary_exp_def, Ideal.hostNegf_def, Ideal.negf_def,
    Ideal.ofBits_def, Ideal.ofBits_one_f32]
  rfl

/-- The stage before the last re-layout is `Y` of the flattened tokens and the projections. -/
theorem v8_eq (x0 : (⟨S4x2048x4096, .f32⟩ : BufTy).Contents (Elt Ideal)) (x1 x2 : (⟨S11008x4096, .f32⟩ : BufTy).Contents (Elt Ideal))
    (x3 : (⟨S4096x11008, .f32⟩ : BufTy).Contents (Elt Ideal)) :
    val_main_v8 (F := Ideal) x0 x1 x2 x3 = Y (val_main_v0 (F := Ideal) x0) x1 x2 x3 := by
  funext i
  obtain ⟨p, q, rfl⟩ : ∃ (p : Fin 8192) (q : Fin 4096), i = (ix2 p q : S8192x4096.Idx) :=
    ⟨i 0, i 1, eq_ix2 (n0 := 8192) (n1 := 4096) i⟩
  rw [val_main_v8_apply]
  show _ = ∑ f : Fin 11008, hid (val_main_v0 (F := Ideal) x0) x1 x2 p f * x3 (ix2 q f)
  refine Finset.sum_congr rfl fun f _ => ?_
  have e1 : lidx_main_v8 (ix2 p q) f = ix2 p f := funext fun a => by
    match a with
    | ⟨0, _⟩ => rfl
    | ⟨1, _⟩ => rfl
  have e2 : idx_main_v7 (ridx_main_v8 (ix2 p q) f) = ix2 q f := funext fun a => by
    match a with
    | ⟨0, _⟩ => rfl
    | ⟨1, _⟩ => rfl
  rw [val_main_v7_apply, e1, e2, val_main_v6_apply, act_ref, gate_ref, up_ref]
  rfl

/-- The reference's result is the feed-forward map of its arguments. -/
theorem result_eq (x0 : (⟨S4x2048x4096, .f32⟩ : BufTy).Contents (Elt Ideal)) (x1 x2 : (⟨S11008x4096, .f32⟩ : BufTy).Contents (Elt Ideal))
    (x3 : (⟨S4096x11008, .f32⟩ : BufTy).Contents (Elt Ideal)) :
    val_main_v9 (F := Ideal) x0 x1 x2 x3
      = ffn x0 x1 x2 x3 shapeCasts_S4x2048x4096_S8192x4096 shapeCasts_S8192x4096_S4x2048x4096 := by
  unfold val_main_v9 ffn
  rw [v8_eq]
  rfl

end Cert.ReferenceIdeal.Stages

end
-- ==== Proof.lean ====
/-
  A gated feed-forward layer computed tile by tile equals the plain one.

  Both programs map tokens x [4, 2048, 4096] and projections Wg, Wu [11008, 4096], Wd [4096, 11008] to

      out(t, d) = Σ_f ((g · logistic g) · u)(t, f) · Wd(d, f),   g = Σ_e x(t, e) · Wg(f, e),   u = Σ_e x(t, e) · Wu(f, e),

  over the extended reals, with the tokens read as 8192 rows.  The plain program takes the sum over the 11008 hidden
  units in one product; the tiled one walks, for each of 16 tiles of 512 tokens, over 43 blocks of 256 hidden units,
  starting the tile's output block from zero and adding each block's 256 summands to it, and writes the block back after
  the last.  The two agree because a sum over 11008 = 43 · 256 indices is the sum of its 43 consecutive blocks, added
  in order from zero: addition of extended reals is associative and commutative, so no entry needs to be finite and
  the precondition is never used.  Narrowing to the 16-bit format is the identity on extended reals, a product with a
  transposed matrix sums a row against a row, and 1 / (1 + exp (−g)) is the logistic function by its definition.

  The modules: Spec (the map and the regrouping of its sum), Payload and StepValue (one step, entry by entry), Cases
  (what each of the step's two control cases leaves), Blocks (where a step's blocks sit in the arrays), Accum (the
  running block after each step, by induction over the 688 steps), Whole (from the written-back blocks to the program's
  result), RefStages (the plain program is the same map).  Reading the word-level program over the extended reals changes
  none of its operations, so that conjunct is trivial; the three frames are the generated ones.
-/
import proofs.«115523_j49220325212289_2_alg».proof.Defs
import proofs.«115523_j49220325212289_2_alg».proof.Proof.Gen.Kernel
import proofs.«115523_j49220325212289_2_alg».proof.Proof.Gen.Kernel.Frame
import proofs.«115523_j49220325212289_2_alg».proof.Proof.Gen.KernelIdeal
import proofs.«115523_j49220325212289_2_alg».proof.Proof.Gen.KernelIdeal.Frame
import proofs.«115523_j49220325212289_2_alg».proof.Proof.Gen.ReferenceIdeal
import proofs.«115523_j49220325212289_2_alg».proof.Proof.Gen.ReferenceIdeal.Run
import proofs.«115523_j49220325212289_2_alg».proof.Proof.Gen.ReferenceIdeal.Read
import proofs.«115523_j49220325212289_2_alg».proof.Proof.Gen.Pre_finite_inputs
import proofs.«115523_j49220325212289_2_alg».proof.Proof.Whole
import proofs.«115523_j49220325212289_2_alg».proof.Proof.RefStages
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The plain program runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals, from memories that agree on the four arguments, both programs end with the feed-forward
    map of the arguments in their result buffers. -/
theorem algebraic : Cert.algebraic_KernelIdeal_ReferenceIdeal := by
  intro m ρ m' ρ' _ hagree
  refine ⟨fun c => Cert.Mlp.ffn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      Cert.KernelIdeal.Gen.shapeCasts_S4x2048x4096_S8192x4096 Cert.KernelIdeal.Gen.shapeCasts_S8192x4096_S4x2048x4096,
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, Cert.ReferenceIdeal.Stages.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
